-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x2048x64 : Shape := ⟨4, ![2, 16, 2048, 64]⟩
abbrev S2x1x2048x2048 : Shape := ⟨4, ![2, 1, 2048, 2048]⟩
abbrev S_ : Shape := ⟨0, ![]⟩

class Facts : Prop where
  bcast_S_S2x16x2048x64 : S_.BroadcastsInDim S2x16x2048x64 (![] : Fin 0 → Fin S2x16x2048x64.rank)
  reducesTo_S2x16x2048x64_S_d0_1_2_3 : S2x16x2048x64.ReducesTo [0, 1, 2, 3] S_
  h_S_ : 0 < S_.numel

variable [Facts]

def fn {F : FTy → Type} [FloatOps F] (main_arg0 : FVec F S2x16x2048x64 .f32) (main_arg1 : FVec F S2x16x2048x64 .f32) (main_arg2 : FVec F S2x16x2048x64 .f32) (main_arg3 : IVec S2x1x2048x2048 32) : IVec S_ 1 :=
  let main_v0 : FVec F S2x16x2048x64 .f32 := Host.absf main_arg0
  let main_cst : FVec F S_ .f32 := constant S_ .f32 0x7F800000#32
  let main_v1 : FVec F S2x16x2048x64 .f32 := broadcastInDim S2x16x2048x64 ![] bcast_S_S2x16x2048x64 main_cst
  let main_v2 : IVec S2x16x2048x64 1 := cmpf .olt main_v0 main_v1
  let main_c : IVec S_ 1 := constantI S_ 1 1#1
  let main_v3 : IVec S_ 1 := (fun x v => Host.reduce IntOp.andi x v reducesTo_S2x16x2048x64_S_d0_1_2_3 h_S_) main_v2 main_c
  let main_v4 : FVec F S2x16x2048x64 .f32 := Host.absf main_arg1
  let main_cst_0 : FVec F S_ .f32 := constant S_ .f32 0x7F800000#32
  let main_v5 : FVec F S2x16x2048x64 .f32 := broadcastInDim S2x16x2048x64 ![] bcast_S_S2x16x2048x64 main_cst_0
  let main_v6 : IVec S2x16x2048x64 1 := cmpf .olt main_v4 main_v5
  let main_c_1 : IVec S_ 1 := constantI S_ 1 1#1
  let main_v7 : IVec S_ 1 := (fun x v => Host.reduce IntOp.andi x v reducesTo_S2x16x2048x64_S_d0_1_2_3 h_S_) main_v6 main_c_1
  let main_v8 : IVec S_ 1 := andi main_v3 main_v7
  let main_v9 : FVec F S2x16x2048x64 .f32 := Host.absf main_arg2
  let main_cst_2 : FVec F S_ .f32 := constant S_ .f32 0x7F800000#32
  let main_v10 : FVec F S2x16x2048x64 .f32 := broadcastInDim S2x16x2048x64 ![] bcast_S_S2x16x2048x64 main_cst_2
  let main_v11 : IVec S2x16x2048x64 1 := cmpf .olt main_v9 main_v10
  let main_c_3 : IVec S_ 1 := constantI S_ 1 1#1
  let main_v12 : IVec S_ 1 := (fun x v => Host.reduce IntOp.andi x v reducesTo_S2x16x2048x64_S_d0_1_2_3 h_S_) main_v11 main_c_3
  let main_v13 : IVec S_ 1 := andi main_v8 main_v12
  main_v13
-- ==== Kernel.lean ====
abbrev S2x16x2048x64 : Shape := ⟨4, ![2, 16, 2048, 64]⟩
abbrev S2x1x2048x2048 : Shape := ⟨4, ![2, 1, 2048, 2048]⟩
abbrev S2x16x2048x2048 : Shape := ⟨4, ![2, 16, 2048, 2048]⟩
abbrev S1x1x256x64 : Shape := ⟨4, ![1, 1, 256, 64]⟩
abbrev S1x1x2048x64 : Shape := ⟨4, ![1, 1, 2048, 64]⟩
abbrev S1x1x2048x2048 : Shape := ⟨4, ![1, 1, 2048, 2048]⟩
abbrev S1x1x256x2048 : Shape := ⟨4, ![1, 1, 256, 2048]⟩
abbrev S256x2048 : Shape := ⟨2, ![256, 2048]⟩
abbrev S256x64 : Shape := ⟨2, ![256, 64]⟩
abbrev S2048x64 : Shape := ⟨2, ![2048, 64]⟩
abbrev S256 : Shape := ⟨1, ![256]⟩
abbrev S256x1 : Shape := ⟨2, ![256, 1]⟩

abbrev nBuf : Space → Nat
  | .hbm => 6
  | .vmem => 11
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S2x1x2048x2048, .i32⟩
  | .hbm, ⟨4, _⟩ => ⟨S2x16x2048x64, .f32⟩
  | .hbm, ⟨5, _⟩ => ⟨S2x16x2048x2048, .f32⟩
  | .local _ .vmem, ⟨0, _⟩ => ⟨S1x1x256x64, .f32⟩
  | .local _ .vmem, ⟨1, _⟩ => ⟨S1x1x256x64, .f32⟩
  | .local _ .vmem, ⟨2, _⟩ => ⟨S1x1x2048x64, .f32⟩
  | .local _ .vmem, ⟨3, _⟩ => ⟨S1x1x2048x64, .f32⟩
  | .local _ .vmem, ⟨4, _⟩ => ⟨S1x1x2048x64, .f32⟩
  | .local _ .vmem, ⟨5, _⟩ => ⟨S1x1x2048x64, .f32⟩
  | .local _ .vmem, ⟨6, _⟩ => ⟨S1x1x2048x2048, .i32⟩
  | .local _ .vmem, ⟨7, _⟩ => ⟨S1x1x256x64, .f32⟩
  | .local _ .vmem, ⟨8, _⟩ => ⟨S1x1x256x64, .f32⟩
  | .local _ .vmem, ⟨9, _⟩ => ⟨S1x1x256x2048, .f32⟩
  | .local _ .vmem, ⟨10, _⟩ => ⟨S1x1x256x2048, .f32⟩
  | _, _ => ⟨S2x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![2, 16, 8], ![false, false, false]⟩

def k0_mult1 (i : grid0.Coords) : BitVec 32 :=
  let arg2 : BitVec 32 := BitVec.ofNat 32 (i 2).val
  let c256_i32 : BitVec 32 := 256#32
  let v0 : BitVec 32 := Scalar.muli arg2 c256_i32
  v0
def k0_off1 (i : grid0.Coords) : Fin 4 → Nat :=
  let c0 : Index := 0#32
  let c0_0 : Index := 0#32
  let arg2 : BitVec 32 := BitVec.ofNat 32 (i 2).val
  let c256_i32 : BitVec 32 := 256#32
  let v0 : BitVec 32 := Scalar.muli arg2 c256_i32
  let v1 : BitVec 32 := v0
  let v2 : Index := Scalar.indexCast v1
  let c0_1 : Index := 0#32
  ![0, 0, v2.toNat, 0]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1x2048x2048 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false, false]

abbrev stage0_4 : Fin 2 → Memref sig .tc .vmem S1x1x256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

class Facts₀ : Prop where
  h_S1x1x256x2048 : 0 < S1x1x256x2048.numel
  shapeCasts_S1x1x256x2048_S256x2048 : S1x1x256x2048.ShapeCasts S256x2048
  inb_S1x1x256x64_S1x1x256x64_0_0_0_0 : ∀ a, (![0, 0, 0, 0] : Fin 4 → Nat) a + S1x1x256x64.size a ≤ S1x1x256x64.size a
  h_S1x1x256x64 : 0 < S1x1x256x64.numel
  shapeCasts_S1x1x256x64_S256x64 : S1x1x256x64.ShapeCasts S256x64
  bitsLt_bf16_f32 : FTy.bits .bf16 < FTy.bits .f32
  inb_S1x1x2048x64_S1x1x2048x64_0_0_0_0 : ∀ a, (![0, 0, 0, 0] : Fin 4 → Nat) a + S1x1x2048x64.size a ≤ S1x1x2048x64.size a
  h_S1x1x2048x64 : 0 < S1x1x2048x64.numel
  shapeCasts_S1x1x2048x64_S2048x64 : S1x1x2048x64.ShapeCasts S2048x64
  reduces_S256x2048_S256 : S256x2048.Reduces [1] S256
  shapeCasts_S256_S256x1 : S256.ShapeCasts S256x1
  broadcasts_S256x1_S256x2048 : S256x1.Broadcasts S256x2048
  inb_S1x1x256x2048_S1x1x256x2048_0_0_0_0 : ∀ a, (![0, 0, 0, 0] : Fin 4 → Nat) a + S1x1x256x2048.size a ≤ S1x1x256x2048.size a
  shapeCasts_S256x2048_S1x1x256x2048 : S256x2048.ShapeCasts S1x1x256x2048
  shapeCasts_S256x64_S1x1x256x64 : S256x64.ShapeCasts S1x1x256x64
  dot_S256x64_S2048x64_S256x2048_1_1_0_0_n_n_wf : DotDims.WF S256x64 S2048x64 S256x2048 [1] [1] [0] [0] [] []
  dot_S256x2048_S2048x64_S256x64_1_0_0_1_n_n_wf : DotDims.WF S256x2048 S2048x64 S256x64 [1] [0] [0] [1] [] []
  hrank0 : 0 < grid0.rank
  k0_mult1_dvd : ∀ i : grid0.Coords, 256 ∣ (k0_mult1 i).toNat
  k0_off1_inb : ∀ i : grid0.Coords, ∀ a, (k0_off1 i) a + S1x1x256x2048.size a ≤ S1x1x2048x2048.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x256x64.size a ≤ S2x16x2048x64.size a
  hwx0_0 : ∀ i : grid0.Coords, EltTy.bits .f32 = 32 ∨ (Rect.block (s := S2x16x2048x64) S1x1x256x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x2048x64.size a ≤ S2x16x2048x64.size a
  hwx0_1 : ∀ i : grid0.Coords, EltTy.bits .f32 = 32 ∨ (Rect.block (s := S2x16x2048x64) S1x1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048x64.size a ≤ S2x16x2048x64.size a
  hwx0_2 : ∀ i : grid0.Coords, EltTy.bits .f32 = 32 ∨ (Rect.block (s := S2x16x2048x64) S1x1x2048x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1x2048x2048.size a ≤ S2x1x2048x2048.size a
  hwx0_3 : ∀ i : grid0.Coords, EltTy.bits .i32 = 32 ∨ (Rect.block (s := S2x1x2048x2048) S1x1x2048x2048.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x256x64.size a ≤ S2x16x2048x64.size a
  hwx0_4 : ∀ i : grid0.Coords, EltTy.bits .f32 = 32 ∨ (Rect.block (s := S2x16x2048x64) S1x1x256x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x256x2048.size a ≤ S2x16x2048x2048.size a
  hwx0_5 : ∀ i : grid0.Coords, EltTy.bits .f32 = 32 ∨ (Rect.block (s := S2x16x2048x2048) S1x1x256x2048.size (cc0_transform_5 i) (hinb0_5 i)).WholeWords (EltTy.packing .f32)

variable [Facts₀]

def dot_S256x64_S2048x64_S256x2048_1_1_0_0_n_n : DotDims S256x64 S2048x64 S256x2048 where
  lhsContracting := [1]
  rhsContracting := [1]
  lhsNonContracting := [0]
  rhsNonContracting := [0]
  lhsBatch := []
  rhsBatch := []
  wf := dot_S256x64_S2048x64_S256x2048_1_1_0_0_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf

abbrev win0_0 : Pipeline.Window sig grid0 :=
  Pipeline.Window.ofSpec (Memref.whole main_arg0) S1x1x256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x1x2048x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S1x1x256x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S1x1x256x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2x16x2048x64 : Shape := ⟨4, ![2, 16, 2048, 64]⟩
abbrev S2x1x2048x2048 : Shape := ⟨4, ![2, 1, 2048, 2048]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩

abbrev nBuf : Space → Nat
  | .hbm => 30
  | .vmem => 0
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S2x1x2048x2048, .i32⟩
  | .hbm, ⟨4, _⟩ => ⟨S2x16x2048x2048, .f32⟩
  | .hbm, ⟨5, _⟩ => ⟨S_, .f32⟩
  | .hbm, ⟨6, _⟩ => ⟨S2x16x2048x2048, .f32⟩
  | .hbm, ⟨7, _⟩ => ⟨S2x16x2048x2048, .f32⟩
  | .hbm, ⟨8, _⟩ => ⟨S_, .i32⟩
  | .hbm, ⟨9, _⟩ => ⟨S2x1x2048x2048, .i32⟩
  | .hbm, ⟨10, _⟩ => ⟨S2x1x2048x2048, .i1⟩
  | .hbm, ⟨11, _⟩ => ⟨S_, .f32⟩
  | .hbm, ⟨12, _⟩ => ⟨S2x16x2048x2048, .i1⟩
  | .hbm, ⟨13, _⟩ => ⟨S2x16x2048x2048, .f32⟩
  | .hbm, ⟨14, _⟩ => ⟨S2x16x2048x2048, .f32⟩
  | .hbm, ⟨15, _⟩ => ⟨S_, .f32⟩
  | .hbm, ⟨16, _⟩ => ⟨S2x16x2048, .f32⟩
  | .hbm, ⟨17, _⟩ => ⟨S_, .f32⟩
  | .hbm, ⟨18, _⟩ => ⟨S2x16x2048, .f32⟩
  | .hbm, ⟨19, _⟩ => ⟨S2x16x2048, .f32⟩
  | .hbm, ⟨20, _⟩ => ⟨S2x16x2048x1, .f32⟩
  | .hbm, ⟨21, _⟩ => ⟨S2x16x2048x2048, .f32⟩
  | .hbm, ⟨22, _⟩ => ⟨S2x16x2048x2048, .f32⟩
  | .hbm, ⟨23, _⟩ => ⟨S2x16x2048x2048, .f32⟩
  | .hbm, ⟨24, _⟩ => ⟨S_, .f32⟩
  | .hbm, ⟨25, _⟩ => ⟨S2x16x2048, .f32⟩
  | .hbm, ⟨26, _⟩ => ⟨S2x16x2048x1, .f32⟩
  | .hbm, ⟨27, _⟩ => ⟨S2x16x2048x2048, .f32⟩
  | .hbm, ⟨28, _⟩ => ⟨S2x16x2048x2048, .f32⟩
  | .hbm, ⟨29, _⟩ => ⟨S2x16x2048x64, .f32⟩
  | _, _ => ⟨S2x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_call0_v0 : Ref sig .tc := ⟨.hbm, 12, rfl⟩
abbrev main_call0_v1 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩

abbrev nD : Nat := 1
abbrev τ : Topo := Topo.v7x

variable {F : FTy → Type} [FloatOps F]

class Facts₀ : Prop where
  bcast_S_S2x16x2048x2048 : S_.BroadcastsInDim S2x16x2048x2048 (![] : Fin 0 → Fin S2x16x2048x2048.rank)
  bcast_S_S2x1x2048x2048 : S_.BroadcastsInDim S2x1x2048x2048 (![] : Fin 0 → Fin S2x1x2048x2048.rank)
  bcast_S2x1x2048x2048_S2x16x2048x2048_0_1_2_3 : S2x1x2048x2048.BroadcastsInDim S2x16x2048x2048 (![0, 1, 2, 3] : Fin 4 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.AttnSpec.lean ====
/-
  Scaled dot-product attention with a mask, one head at a time, over the extended reals.

  For batch b, head h, query row q and key k the masked score is
      s(q, k) = fill                               where mask(b, q, k) = 0,
                (Σ_d Q(b,h,q,d) · K(b,h,k,d)) · c   elsewhere,
  with fill the binary32 number -1e9 and c the binary32 number 1/8. The attention probability is the row softmax
      p(q, k) = exp(s(q, k) - max_k' s(q, k')) / Σ_k' exp(s(q, k') - max_k'' s(q, k'')),
  the maximum a fold of max from -∞, and the context entry is the weighted sum of a value column,
      ctx(q, d) = Σ_k p(q, k) · V(b,h,k,d).
  The mask has no head axis: every head of a batch shares it.

  Two scalar facts sit here too: dividing by the binary32 number 8 is multiplying by the binary32 number 1/8, on
  every extended real, and the maximum with -∞ is the other operand.
-/
import Idealize.ShloMosaic.PureOps.Ideal
import Idealize.ShloMosaic.PureOps.Ideal.Laws
import Idealize.ShloMosaic.Lib.ValueIdx

noncomputable section

namespace Cert.Sdpa

open Idealize.ShloMosaic Idealize.ShloMosaic.ValueIdx

/-- Queries, keys and values: batch, head, position, feature. -/
abbrev QKV := FVec Ideal ⟨4, ![2, 16, 2048, 64]⟩ .f32
/-- The mask: batch, one shared head, query position, key position. -/
abbrev Mask := IVec ⟨4, ![2, 1, 2048, 2048]⟩ 32

/-- The masked, scaled score of key `k` for query `q`. -/
def score (Q K : QKV) (M : Mask) (b : Fin 2) (h : Fin 16) (q k : Fin 2048) : Ideal .f32 :=
  Scalar.select (IntOp.cmpi .eq (M (ix4 b (0 : Fin 1) q k)) 0#32) (Ideal.ofBits .f32 0xCE6E6B28#32)
    ((∑ d : Fin 64, Q (ix4 b h q d) * K (ix4 b h k d)) * Ideal.ofBits .f32 0x3E000000#32)

/-- The unnormalised softmax weight: the exponential of the score less the row's maximum. -/
def weight (Q K : QKV) (M : Mask) (b : Fin 2) (h : Fin 16) (q k : Fin 2048) : Ideal .f32 :=
  Ideal.exp (score Q K M b h q k - (Finset.univ : Finset (Fin 2048)).fold max ⊥ (fun k' => score Q K M b h q k'))

/-- The attention probability: the weight over the row's sum of weights. -/
def prob (Q K : QKV) (M : Mask) (b : Fin 2) (h : Fin 16) (q k : Fin 2048) : Ideal .f32 :=
  Ideal.div (weight Q K M b h q k) (∑ k' : Fin 2048, weight Q K M b h q k')

/-- The context entry: the probabilities' weighted sum of one value column. -/
def ctx (Q K V : QKV) (M : Mask) (b : Fin 2) (h : Fin 16) (q : Fin 2048) (d : Fin 64) : Ideal .f32 :=
  ∑ k : Fin 2048, prob Q K M b h q k * V (ix4 b h k d)

/-- The whole probability array. -/
def probs (Q K : QKV) (M : Mask) : FVec Ideal ⟨4, ![2, 16, 2048, 2048]⟩ .f32 :=
  fun i => prob Q K M (i 0) (i 1) (i 2) (i 3)

/-- The whole context array. -/
def ctxs (Q K V : QKV) (M : Mask) : FVec Ideal ⟨4, ![2, 16, 2048, 64]⟩ .f32 :=
  fun i => ctx Q K V M (i 0) (i 1) (i 2) (i 3)

theorem probs_apply (Q K : QKV) (M : Mask) (b : Fin 2) (h : Fin 16) (q k : Fin 2048) :
    probs Q K M (ix4 b h q k) = prob Q K M b h q k := rfl

theorem ctxs_apply (Q K V : QKV) (M : Mask) (b : Fin 2) (h : Fin 16) (q : Fin 2048) (d : Fin 64) :
    ctxs Q K V M (ix4 b h q d) = ctx Q K V M b h q d := rfl

/-- The binary32 word of 8 denotes the real 8. -/
theorem ofBits_eight : Ideal.ofBits .f32 0x41000000#32 = ((8 : ℝ) : EReal) := by
  simp [Ideal.ofBits, Ideal.ieee, -EReal.coe_mul]; norm_num

/-- The binary32 word of 1/8 denotes the real 1/8. -/
theorem ofBits_eighth : Ideal.ofBits .f32 0x3E000000#32 = ((1 / 8 : ℝ) : EReal) := by
  simp [Ideal.ofBits, Ideal.ieee, -EReal.coe_mul]; norm_num

/-- Dividing by 8 is multiplying by 1/8, at the infinities too. -/
theorem div_eight (x : EReal) :
    Ideal.div x (Ideal.ofBits .f32 0x41000000#32) = x * Ideal.ofBits .f32 0x3E000000#32 := by
  rw [ofBits_eight, ofBits_eighth]
  exact Ideal.div_coe (by norm_num) x

/-- The binary32 word of -∞ is the least extended real, so the maximum with it is the other operand. -/
theorem max_neg_inf (x : EReal) : max (Ideal.ofBits .f32 0xFF800000#32) x = x := by
  have h : Ideal.ofBits .f32 0xFF800000#32 = (⊥ : EReal) := by simp [Ideal.ofBits, Ideal.ieee]
  rw [h]; exact max_eq_right bot_le

end Cert.Sdpa

end
-- ==== Proof.RefIsSpec.lean ====
/-
  The reference computes the specification.

  Its program is a straight line: the batched contraction of queries with keys over the feature axis, divided by 8;
  the mask compared with zero, broadcast over the heads, selecting the fill or the quotient; the row maximum (a
  reduction of max from -∞, then once more the maximum with -∞), kept as a trailing unit axis and broadcast back,
  subtracted; the exponential; the row sum from zero, kept and broadcast the same way; the quotient; and the batched
  contraction of the probabilities with the values over the key axis. Read at an index (b, h, q, k) each stage is the
  specification's scalar of the same name: the quotient by 8 is the product with 1/8, the maximum with -∞ is the
  identity, the sum from zero is the sum.
-/
import proofs.«107033_j48679159333219_2_alg».proof.Proof.Gen.ReferenceIdeal.Read
import proofs.«107033_j48679159333219_2_alg».proof.Proof.AttnSpec
import Idealize.ShloMosaic.PureOps.Reduce

noncomputable section

namespace Cert.Sdpa.Ref

open Cert.ReferenceIdeal Cert.ReferenceIdeal.Gen Cert.ReferenceIdeal.Read Idealize.ShloMosaic Idealize.ShloMosaic.ValueIdx Cert.Sdpa

variable (x0 x1 x2 : (⟨S2x16x2048x64, .f32⟩ : BufTy).Contents (Elt Ideal))
  (x3 : (⟨S2x1x2048x2048, .i32⟩ : BufTy).Contents (Elt Ideal))

/-- The masked score stage at (b, h, q, k) is the specification's score. -/
theorem score_stage (b : Fin 2) (h : Fin 16) (q k : Fin 2048) :
    val_main_v5 (F := Ideal) x0 x1 x3 (ix4 b h q k) = score x0 x1 x3 b h q k := by
  have e1 : idx_main_call0_v0 (ix4 b h q k) = ix4 b (0 : Fin 1) q k :=
    funext fun a => Fin.ext (by match a with | ⟨0, _⟩ => rfl | ⟨1, _⟩ => rfl | ⟨2, _⟩ => rfl | ⟨3, _⟩ => rfl)
  have e2 : ∀ d : Fin 64, lidx_main_v0 (ix4 b h q k) d = ix4 b h q d := fun d =>
    funext fun a => Fin.ext (by match a with | ⟨0, _⟩ => rfl | ⟨1, _⟩ => rfl | ⟨2, _⟩ => rfl | ⟨3, _⟩ => rfl)
  have e3 : ∀ d : Fin 64, ridx_main_v0 (ix4 b h q k) d = ix4 b h k d := fun d =>
    funext fun a => Fin.ext (by match a with | ⟨0, _⟩ => rfl | ⟨1, _⟩ => rfl | ⟨2, _⟩ => rfl | ⟨3, _⟩ => rfl)
  rw [val_main_v5_apply, val_main_call0_v0_apply, val_main_v4_apply, val_main_v3_apply, val_main_c_apply,
    val_main_call0_v1_apply, val_main_cst_0_apply, val_main_v2_apply, val_main_v0_apply, val_main_v1_apply,
    val_main_cst_apply, e1]
  simp only [e2, e3]
  unfold score
  rw [← div_eight]
  rfl

/-- The row-maximum stage at (b, h, q) is the fold of max from -∞ over the row's scores. -/
theorem rowmax_stage (b : Fin 2) (h : Fin 16) (q : Fin 2048) :
    val_main_v8 (F := Ideal) x0 x1 x3 (ix3 b h q)
      = (Finset.univ : Finset (Fin 2048)).fold max ⊥ (fun k => score x0 x1 x3 b h q k) := by
  have hbot : Ideal.ofBits .f32 0xFF800000#32 = (⊥ : EReal) := by
    have := max_neg_inf ⊥; rwa [max_eq_left bot_le] at this
  rw [val_main_v8_apply, val_main_v7_apply, val_main_cst_2_apply]
  unfold val_main_v6
  rw [Host.reduce_eq_fold_single FloatOps.maximumf _ _ reducesTo_S2x16x2048x2048_S2x16x2048_d3 (by decide) h_S_]
  show max (Ideal.ofBits .f32 0xFF800000#32)
      ((Finset.univ : Finset (Fin 2048)).fold max (Ideal.ofBits .f32 0xFF800000#32) _) = _
  rw [max_neg_inf, hbot]
  refine congrArg (Finset.fold max ⊥ · Finset.univ) (funext fun k => ?_)
  refine Eq.trans (congrArg (val_main_v5 (F := Ideal) x0 x1 x3) (funext fun a => Fin.ext ?_)) (score_stage x0 x1 x3 b h q k)
  match a with
  | ⟨0, _⟩ => rfl
  | ⟨1, _⟩ => rfl
  | ⟨2, _⟩ => rfl
  | ⟨3, _⟩ => rfl

/-- The exponential stage at (b, h, q, k) is the specification's weight. -/
theorem weight_stage (b : Fin 2) (h : Fin 16) (q k : Fin 2048) :
    val_main_v12 (F := Ideal) x0 x1 x3 (ix4 b h q k) = weight x0 x1 x3 b h q k := by
  have e1 : idx_main_v9 (idx_main_v10 (ix4 b h q k)) = ix3 b h q :=
    funext fun a => Fin.ext (by match a with | ⟨0, _⟩ => rfl | ⟨1, _⟩ => rfl | ⟨2, _⟩ => rfl)
  rw [val_main_v12_apply, val_main_v11_apply, val_main_v10_apply, val_main_v9_apply, e1, rowmax_stage, score_stage]
  rfl

/-- The probability stage at (b, h, q, k) is the specification's probability. -/
theorem prob_stage (b : Fin 2) (h : Fin 16) (q k : Fin 2048) :
    val_main_v16 (F := Ideal) x0 x1 x3 (ix4 b h q k) = prob x0 x1 x3 b h q k := by
  have e1 : idx_main_v14 (idx_main_v15 (ix4 b h q k)) = ix3 b h q :=
    funext fun a => Fin.ext (by match a with | ⟨0, _⟩ => rfl | ⟨1, _⟩ => rfl | ⟨2, _⟩ => rfl)
  have e2 : ∀ k' : Fin 2048, idx_main_v13 (ix3 b h q) k' = ix4 b h q k' := fun k' =>
    funext fun a => Fin.ext (by match a with | ⟨0, _⟩ => rfl | ⟨1, _⟩ => rfl | ⟨2, _⟩ => rfl | ⟨3, _⟩ => rfl)
  rw [val_main_v16_apply, val_main_v15_apply, val_main_v14_apply, e1, val_main_v13_apply, val_main_cst_3_apply,
    weight_stage]
  simp only [e2, weight_stage]
  show Ideal.div _ (Ideal.ofBits .f32 0x00000000#32 + _) = _
  rw [Ideal.ofBits_zero_f32, zero_add]
  rfl

/-- The probability result is the specification's probability array. -/
theorem probs_eq : val_main_v16 (F := Ideal) x0 x1 x3 = probs x0 x1 x3 := by
  funext i
  obtain ⟨b, h, q, k, rfl⟩ : ∃ (b : Fin 2) (h : Fin 16) (q k : Fin 2048), i = ix4 b h q k :=
    ⟨i 0, i 1, i 2, i 3, eq_ix4 i⟩
  exact prob_stage x0 x1 x3 b h q k

/-- The context result is the specification's context array. -/
theorem ctxs_eq : val_main_v17 (F := Ideal) x0 x1 x2 x3 = ctxs x0 x1 x2 x3 := by
  funext i
  obtain ⟨b, h, q, d, rfl⟩ : ∃ (b : Fin 2) (h : Fin 16) (q : Fin 2048) (d : Fin 64), i = ix4 b h q d :=
    ⟨i 0, i 1, i 2, i 3, eq_ix4 i⟩
  have e1 : ∀ k : Fin 2048, lidx_main_v17 (ix4 b h q d) k = ix4 b h q k := fun k =>
    funext fun a => Fin.ext (by match a with | ⟨0, _⟩ => rfl | ⟨1, _⟩ => rfl | ⟨2, _⟩ => rfl | ⟨3, _⟩ => rfl)
  have e2 : ∀ k : Fin 2048, ridx_main_v17 (ix4 b h q d) k = ix4 b h k d := fun k =>
    funext fun a => Fin.ext (by match a with | ⟨0, _⟩ => rfl | ⟨1, _⟩ => rfl | ⟨2, _⟩ => rfl | ⟨3, _⟩ => rfl)
  rw [val_main_v17_apply]
  simp only [e1, e2, prob_stage]
  rfl

end Cert.Sdpa.Ref

end
-- ==== Proof.KernelPieces.lean ====
/-
  What one run of the body leaves in the two output blocks.

  The body loads its query block, the keys, the values and 256 rows of the mask — the rows its query tile stands on,
  read through a rectangle of the mask block whose row offset is 256 times the tile's number — and stores each output
  block once, whole. So the probability block it leaves is the body's probability term of the loaded query block, keys
  and mask rows, and the context block the body's context term of those and the values: one covering store each, read
  back as its payload.
-/
import proofs.«107033_j48679159333219_2_alg».proof.Proof.Gen.KernelIdeal.Frame
import Idealize.ShloMosaic.Lib.Pipeline.Value
import Idealize.ShloMosaic.Lib.Tactic

set_option maxRecDepth 16384

noncomputable section

namespace Cert.Sdpa.Pieces

open Cert.KernelIdeal Cert.KernelIdeal.Gen Idealize.ShloMosaic Idealize.ShloMosaic.TcCoe Idealize.ShloMosaic.Tactic Idealize.SL.Sem

variable {F : FTy → Type} [FloatOps F]

/-- Four zero offsets, as the constant function. -/
theorem hz4 : (![0, 0, 0, 0] : Fin 4 → Nat) = fun _ => 0 := funext fun a => by fin_cases a <;> rfl

/-- The 256 mask rows the body loads at grid coordinates `i`: the mask block read through the rectangle of 256 rows
    from row 256 · (tile number), all 2048 columns. -/
def maskRows (i : grid0.Coords) (x3 : Vec F S1x1x2048x2048 .i32) : Vec F S1x1x256x2048 .i32 :=
  View.ld x3 (Rect.unit (s := S1x1x2048x2048) (k0_off1 i) S1x1x256x2048.size (k0_off1_inb i))

/-- The probability block after the body: its one covering store's payload, over the loaded blocks. -/
theorem prob_piece (c : Dev nD) (i : grid0.Coords) (arg3 : Memref sig .tc .vmem S1x1x256x64 .f32) (harg3 : arg3.IsWhole) (arg4 : Memref sig .tc .vmem S1x1x2048x64 .f32) (harg4 : arg4.IsWhole) (arg5 : Memref sig .tc .vmem S1x1x2048x64 .f32) (harg5 : arg5.IsWhole) (arg6 : Memref sig .tc .vmem S1x1x2048x2048 .i32) (harg6 : arg6.IsWhole) (arg7 : Memref sig .tc .vmem S1x1x256x64 .f32) (harg7 : arg7.IsWhole) (arg8 : Memref sig .tc .vmem S1x1x256x2048 .f32) (harg8 : arg8.IsWhole)
    (x0 : Vec F S1x1x256x64 .f32) (x1 : Vec F S1x1x2048x64 .f32) (x2 : Vec F S1x1x2048x64 .f32) (x3 : Vec F S1x1x2048x2048 .i32) :
    out0_A_5 c i arg3 harg3 arg4 harg4 arg5 harg5 arg6 harg6 arg7 harg7 arg8 harg8 x0 x1 x2 x3 = k0_pay1 (k0_pay4 (maskRows i x3) x0 x1) := by
  unfold out0_A_5
  rw [View.read_writes_eq_canon _ _ _ (cover0_A_5 c i arg3 harg3 arg4 harg4 arg5 harg5 arg6 harg6 arg7 harg7 arg8 harg8 x0 x1 x2 x3)]
  unfold kernelRun0_A
  dsimp only
  sl_unfold_words
  rw [View.canon_unit_zero hz4]
  simp only [View.readAt_eq_ld, harg3.read_unread, harg4.read_unread, harg6.read_unread,
    View.ld_unit_zero (S := S1x1x256x64) hz4, View.ld_unit_zero (S := S1x1x2048x64) hz4]
  rfl

/-- The context block after the body: its one covering store's payload, over the loaded blocks. -/
theorem ctx_piece (c : Dev nD) (i : grid0.Coords) (arg3 : Memref sig .tc .vmem S1x1x256x64 .f32) (harg3 : arg3.IsWhole) (arg4 : Memref sig .tc .vmem S1x1x2048x64 .f32) (harg4 : arg4.IsWhole) (arg5 : Memref sig .tc .vmem S1x1x2048x64 .f32) (harg5 : arg5.IsWhole) (arg6 : Memref sig .tc .vmem S1x1x2048x2048 .i32) (harg6 : arg6.IsWhole) (arg7 : Memref sig .tc .vmem S1x1x256x64 .f32) (harg7 : arg7.IsWhole) (arg8 : Memref sig .tc .vmem S1x1x256x2048 .f32) (harg8 : arg8.IsWhole)
    (x0 : Vec F S1x1x256x64 .f32) (x1 : Vec F S1x1x2048x64 .f32) (x2 : Vec F S1x1x2048x64 .f32) (x3 : Vec F S1x1x2048x2048 .i32) :
    out0_A_4 c i arg3 harg3 arg4 harg4 arg5 harg5 arg6 harg6 arg7 harg7 arg8 harg8 x0 x1 x2 x3 = k0_pay2 (k0_pay3 x2) (k0_pay4 (maskRows i x3) x0 x1) := by
  unfold out0_A_4
  rw [View.read_writes_eq_canon _ _ _ (cover0_A_4 c i arg3 harg3 arg4 harg4 arg5 harg5 arg6 harg6 arg7 harg7 arg8 harg8 x0 x1 x2 x3)]
  unfold kernelRun0_A
  dsimp only
  sl_unfold_words
  rw [View.canon_unit_zero hz4]
  simp only [View.readAt_eq_ld, harg3.read_unread, harg4.read_unread, harg5.read_unread, harg6.read_unread,
    View.ld_unit_zero (S := S1x1x256x64) hz4, View.ld_unit_zero (S := S1x1x2048x64) hz4]
  rfl

end Cert.Sdpa.Pieces

end
-- ==== Proof.LibColumnLayout.lean ====
/-
  Column layouts and row reductions read at an index.

  A reduction along the last axis with `keepdims` leaves a column: the reduced vector `[a]` is cast to `[a, 1]` and
  broadcast back to `[a, b]`, so entry `(p, c)` of the broadcast is entry `p` of the reduced vector. The reductions
  themselves, over the last axis of a rank-2 array and read at row `p`, are the sum (resp. the fold of `max`) over that
  row's entries. Stated over literal-size constructors (`ix1`, `ix2`) so that they fire on indices built by coordinates.
-/
import Idealize.ShloMosaic.Lib.ValueIdx
import Idealize.ShloMosaic.Lib.ValueLayout
import Idealize.ShloMosaic.Lib.Pipeline.Value
import Idealize.ShloMosaic.PureOps.Ideal.Laws

noncomputable section

namespace Idealize.ShloMosaic.ColumnLayout

open Idealize.ShloMosaic Idealize.ShloMosaic.ValueIdx

variable {α : Type}

/-- An `[a]` array cast to the column `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, b]` array cast to `[1, 1, a, b]` reads, at `(u, v, i, j)`, the operand at `(i, j)`, whatever the unit coordinates. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_two, Shape.rowMajor_val_four]
    show i.val * b + j.val = ((u.val * 1 + v.val) * a + i.val) * b + j.val
    simp only [hu, hv, Nat.zero_mul, Nat.zero_add])

/-- The two together: a reduced vector kept as a column and broadcast back along the rows. -/
theorem keepdims_apply {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) :=
  (broadcastTo_a1_ab_apply _ h' p c).trans (shapeCast_a_a1_apply x h p 0)

/-- A float sum over the last axis of an `[a, b]` array from the zero word, read at row `p` at the extended reals: the sum
    of the row's entries. -/
theorem rowSum_apply {a b : ℕ} (src : FVec Ideal ⟨2, ![a, b]⟩ .f32) (h : (⟨2, ![a, b]⟩ : Shape).Reduces [1] ⟨1, ![a]⟩)
    (hφ : FKind.Formats FTy.f32) (hacc : (0x00000000#32 : BitVec FTy.f32.bits) = FKind.add.neutral .f32 hφ) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => congrArg src (funext fun ax => Fin.ext ?_)
  match ax with
  | ⟨0, _⟩ => rfl
  | ⟨1, _⟩ => rfl

/-- The binary32 word of `−∞` is the least extended real. -/
theorem ofBits_neg_inf_f32 : Ideal.ofBits .f32 0xFF800000#32 = ⊥ := by simp [Ideal.ofBits, Ideal.ieee]

/-- A float maximum over the last axis of an `[a, b]` array from the `−∞` word, read at row `p` at the extended reals: the
    fold of `max` over the row's entries from `⊥`. -/
theorem rowMax_apply {a b : ℕ} (src : FVec Ideal ⟨2, ![a, b]⟩ .f32) (h : (⟨2, ![a, b]⟩ : Shape).Reduces [1] ⟨1, ![a]⟩)
    (hφ : FKind.Formats FTy.f32) (hacc : (0xFF800000#32 : BitVec FTy.f32.bits) = FKind.maximumf.neutral .f32 hφ) (p : Fin a) :
    multiReduction .maximumf [1] ⟨1, ![a]⟩ src 0xFF800000#32 h hφ hacc (ix1 p)
      = (Finset.univ : Finset (Fin b)).fold max ⊥ (fun k => src (ix2 p k)) := by
  refine (Ideal.multiReduction_maximumf_single src 0xFF800000#32 h hφ hacc (ix1 p)).trans ?_
  show (Finset.univ : Finset (Fin b)).fold max (Ideal.ofBits .f32 0xFF800000#32) (src ∘ h.lift (ix1 p)) = _
  rw [ofBits_neg_inf_f32]
  refine congrArg (Finset.fold max ⊥ · Finset.univ) (funext fun k => congrArg src (funext fun ax => Fin.ext ?_))
  match ax with
  | ⟨0, _⟩ => rfl
  | ⟨1, _⟩ => rfl

/-- A row softmax read at an entry. The printed form: the row maximum (a float `max` reduction from `−∞`) kept as a
    column, subtracted, exponentiated; the row sum of the exponentials (a float `add` reduction from zero) kept as a column;
    the quotient. At `(m, n)`, over the extended reals, it is `exp (s[m, n] − max_n' s[m, n'])` over the sum of the same
    expression along row `m`. -/
theorem rowSoftmax_apply {a b : ℕ} (s : FVec Ideal ⟨2, ![a, b]⟩ .f32)
    (h : (⟨2, ![a, b]⟩ : Shape).Reduces [1] ⟨1, ![a]⟩) (hφ hφ' : FKind.Formats FTy.f32)
    (hmax : (0xFF800000#32 : BitVec FTy.f32.bits) = FKind.maximumf.neutral .f32 hφ)
    (hadd : (0x00000000#32 : BitVec FTy.f32.bits) = FKind.add.neutral .f32 hφ')
    (hc : (⟨1, ![a]⟩ : Shape).ShapeCasts ⟨2, ![a, 1]⟩) (hb : (⟨2, ![a, 1]⟩ : Shape).Broadcasts ⟨2, ![a, b]⟩)
    (m : Fin a) (n : Fin b) :
    divf
        (exp (subf s (broadcastTo ⟨2, ![a, b]⟩
          (shapeCast ⟨2, ![a, 1]⟩ (multiReduction .maximumf [1] ⟨1, ![a]⟩ s 0xFF800000#32 h hφ hmax) hc) hb)))
        (broadcastTo ⟨2, ![a, b]⟩
          (shapeCast ⟨2, ![a, 1]⟩
            (multiReduction .add [1] ⟨1, ![a]⟩
              (exp (subf s (broadcastTo ⟨2, ![a, b]⟩
                (shapeCast ⟨2, ![a, 1]⟩ (multiReduction .maximumf [1] ⟨1, ![a]⟩ s 0xFF800000#32 h hφ hmax) hc) hb)))
              0x00000000#32 h hφ' hadd) hc) hb)
        (ix2 m n)
      = Ideal.div (Ideal.exp (s (ix2 m n) - (Finset.univ : Finset (Fin b)).fold max ⊥ (fun n' => s (ix2 m n'))))
          (∑ n' : Fin b, Ideal.exp (s (ix2 m n') - (Finset.univ : Finset (Fin b)).fold max ⊥ (fun n'' => s (ix2 m n'')))) := by
  have hnum : ∀ n' : Fin b,
      exp (subf s (broadcastTo ⟨2, ![a, b]⟩
          (shapeCast ⟨2, ![a, 1]⟩ (multiReduction .maximumf [1] ⟨1, ![a]⟩ s 0xFF800000#32 h hφ hmax) hc) hb)) (ix2 m n')
        = Ideal.exp (s (ix2 m n') - (Finset.univ : Finset (Fin b)).fold max ⊥ (fun n'' => s (ix2 m n''))) := by
    intro n'
    show Ideal.exp (s (ix2 m n') - broadcastTo ⟨2, ![a, b]⟩
          (shapeCast ⟨2, ![a, 1]⟩ (multiReduction .maximumf [1] ⟨1, ![a]⟩ s 0xFF800000#32 h hφ hmax) hc) hb (ix2 m n')) = _
    rw [keepdims_apply, rowMax_apply]
  rw [divf_apply, hnum n, keepdims_apply, rowSum_apply]
  exact congrArg (Ideal.div _) (Finset.sum_congr rfl fun n' _ => hnum n')

end Idealize.ShloMosaic.ColumnLayout

end
-- ==== Proof.LibUnitAxes.lean ====
/-
  Blocks with two leading unit axes seen as matrices.

  A block of shape [1, 1, a, b] has the same row-major order as the matrix [a, b]: the two unit coordinates contribute
  nothing to the position. So the block cast to a matrix reads, at (i, j), the block at (0, 0, i, j). (The cast in the
  other direction, a matrix stored as such a block, is read the same way.) Stated over literal-size constructors
  (`ix2`, `ix4`) so that it fires on indices built by coordinates.
-/
import Idealize.ShloMosaic.Lib.ValueIdx
import Idealize.ShloMosaic.Lib.Pipeline.Value

noncomputable section

namespace Idealize.ShloMosaic.UnitAxes

open Idealize.ShloMosaic Idealize.ShloMosaic.ValueIdx

variable {α : Type}

/-- A `[1, 1, a, b]` block cast to the matrix `[a, b]` reads, at `(i, j)`, the block at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show (((0 : Fin 1).val * 1 + (0 : Fin 1).val) * a + i.val) * b + j.val = i.val * b + j.val
    simp)

end Idealize.ShloMosaic.UnitAxes

end
-- ==== Proof.KernelBody.lean ====
/-
  The kernel's body, one entry at a time.

  At a grid point the body holds a block of 256 query rows, all 2048 keys and values of one head, and 256 rows of the
  mask. It contracts queries with keys over the 64 features and multiplies by 1/8; where the mask row is zero it puts
  the fill -1e9; it takes the row softmax of the 256 × 2048 block of scores; it stores that block as the probabilities,
  and contracts it with the values over the 2048 keys for the context block. Read at (r, k), resp. (r, d), these are
  the specification's probability and context entry of the row the block's row r stands for, once the blocks' entries
  are known to be the arrays' entries of that row.
-/
import proofs.«107033_j48679159333219_2_alg».proof.Proof.Gen.KernelIdeal.Skeleton
import proofs.«107033_j48679159333219_2_alg».proof.Proof.AttnSpec
import proofs.«107033_j48679159333219_2_alg».proof.Proof.LibColumnLayout
import proofs.«107033_j48679159333219_2_alg».proof.Proof.LibUnitAxes
import Idealize.ShloMosaic.Lib.Pipeline.Value
import Idealize.ShloMosaic.Lib.ValueIdx
import Idealize.ShloMosaic.PureOps.Ideal.Laws

noncomputable section

namespace Cert.Sdpa.Body

open Cert.KernelIdeal Cert.KernelIdeal.Gen Idealize.ShloMosaic Idealize.ShloMosaic.ValueIdx Idealize.ShloMosaic.UnitAxes Cert.Sdpa

/-- The coordinates of the operands' indices on their free axes, for the two products. -/
theorem qk_lhs0 (i : S256x2048.Idx) (q : dot_S256x64_S2048x64_S256x2048_1_1_0_0_n_n.contr.Idx) : (dot_S256x64_S2048x64_S256x2048_1_1_0_0_n_n.lhsIdx i q 0).val = (i 0).val := by
  unfold DotDims.lhsIdx
  rw [dif_neg (show ¬(0 : Fin S256x64.rank) ∈ dot_S256x64_S2048x64_S256x2048_1_1_0_0_n_n.lhsBatch by decide),
    dif_pos (show (0 : Fin S256x64.rank) ∈ dot_S256x64_S2048x64_S256x2048_1_1_0_0_n_n.lhsNonContracting by decide)]
  rfl
theorem qk_rhs0 (i : S256x2048.Idx) (q : dot_S256x64_S2048x64_S256x2048_1_1_0_0_n_n.contr.Idx) : (dot_S256x64_S2048x64_S256x2048_1_1_0_0_n_n.rhsIdx i q 0).val = (i 1).val := by
  unfold DotDims.rhsIdx
  rw [dif_neg (show ¬(0 : Fin S2048x64.rank) ∈ dot_S256x64_S2048x64_S256x2048_1_1_0_0_n_n.rhsBatch by decide),
    dif_pos (show (0 : Fin S2048x64.rank) ∈ dot_S256x64_S2048x64_S256x2048_1_1_0_0_n_n.rhsNonContracting by decide)]
  rfl
theorem pv_lhs0 (i : S256x64.Idx) (q : dot_S256x2048_S2048x64_S256x64_1_0_0_1_n_n.contr.Idx) : (dot_S256x2048_S2048x64_S256x64_1_0_0_1_n_n.lhsIdx i q 0).val = (i 0).val := by
  unfold DotDims.lhsIdx
  rw [dif_neg (show ¬(0 : Fin S256x2048.rank) ∈ dot_S256x2048_S2048x64_S256x64_1_0_0_1_n_n.lhsBatch by decide),
    dif_pos (show (0 : Fin S256x2048.rank) ∈ dot_S256x2048_S2048x64_S256x64_1_0_0_1_n_n.lhsNonContracting by decide)]
  rfl
theorem pv_rhs1 (i : S256x64.Idx) (q : dot_S256x2048_S2048x64_S256x64_1_0_0_1_n_n.contr.Idx) : (dot_S256x2048_S2048x64_S256x64_1_0_0_1_n_n.rhsIdx i q 1).val = (i 1).val := by
  unfold DotDims.rhsIdx
  rw [dif_neg (show ¬(1 : Fin S2048x64.rank) ∈ dot_S256x2048_S2048x64_S256x64_1_0_0_1_n_n.rhsBatch by decide),
    dif_pos (show (1 : Fin S2048x64.rank) ∈ dot_S256x2048_S2048x64_S256x64_1_0_0_1_n_n.rhsNonContracting by decide)]
  rfl

/-- Queries against keys: entry (r, k) of the product into a zero accumulator is the sum over the 64 features. -/
theorem qk_apply (a : FVec Ideal S256x64 .bf16) (b : FVec Ideal S2048x64 .bf16) (r : Fin 256) (k : Fin 2048) :
    matmul (F := Ideal) dot_S256x64_S2048x64_S256x2048_1_1_0_0_n_n none a b (constant (F := Ideal) S256x2048 .f32 0x00000000#32) (ix2 r k)
      = ∑ d : Fin 64, a (ix2 r d) * b (ix2 k d) := by
  simp only [matmul]
  rw [Ideal.matmul_constant_zero_apply,
    ← Equiv.sum_comp (contrEquiv1 dot_S256x64_S2048x64_S256x2048_1_1_0_0_n_n 64 rfl rfl).symm]
  refine Finset.sum_congr rfl fun d _ => ?_
  have hk := contrEquiv1_symm_val dot_S256x64_S2048x64_S256x2048_1_1_0_0_n_n 64 rfl rfl d
  have el : dot_S256x64_S2048x64_S256x2048_1_1_0_0_n_n.lhsIdx (ix2 r k) ((contrEquiv1 dot_S256x64_S2048x64_S256x2048_1_1_0_0_n_n 64 rfl rfl).symm d) = ix2 r d :=
    funext fun ax => Fin.ext (by
      match ax with
      | ⟨0, _⟩ => exact qk_lhs0 _ _
      | ⟨1, _⟩ => exact (dot_S256x64_S2048x64_S256x2048_1_1_0_0_n_n.lhsIdx_val_of_single rfl _ _).trans hk)
  have er : dot_S256x64_S2048x64_S256x2048_1_1_0_0_n_n.rhsIdx (ix2 r k) ((contrEquiv1 dot_S256x64_S2048x64_S256x2048_1_1_0_0_n_n 64 rfl rfl).symm d) = ix2 k d :=
    funext fun ax => Fin.ext (by
      match ax with
      | ⟨0, _⟩ => exact qk_rhs0 _ _
      | ⟨1, _⟩ => exact (dot_S256x64_S2048x64_S256x2048_1_1_0_0_n_n.rhsIdx_val_of_single rfl _ _).trans hk)
  rw [el, er]

/-- Probabilities against values: entry (r, d) of the product into a zero accumulator is the sum over the 2048 keys. -/
theorem pv_apply (a : FVec Ideal S256x2048 .bf16) (b : FVec Ideal S2048x64 .bf16) (r : Fin 256) (d : Fin 64) :
    matmul (F := Ideal) dot_S256x2048_S2048x64_S256x64_1_0_0_1_n_n none a b (constant (F := Ideal) S256x64 .f32 0x00000000#32) (ix2 r d)
      = ∑ k : Fin 2048, a (ix2 r k) * b (ix2 k d) := by
  simp only [matmul]
  rw [Ideal.matmul_constant_zero_apply,
    ← Equiv.sum_comp (contrEquiv1 dot_S256x2048_S2048x64_S256x64_1_0_0_1_n_n 2048 rfl rfl).symm]
  refine Finset.sum_congr rfl fun k _ => ?_
  have hk := contrEquiv1_symm_val dot_S256x2048_S2048x64_S256x64_1_0_0_1_n_n 2048 rfl rfl k
  have el : dot_S256x2048_S2048x64_S256x64_1_0_0_1_n_n.lhsIdx (ix2 r d) ((contrEquiv1 dot_S256x2048_S2048x64_S256x64_1_0_0_1_n_n 2048 rfl rfl).symm k) = ix2 r k :=
    funext fun ax => Fin.ext (by
      match ax with
      | ⟨0, _⟩ => exact pv_lhs0 _ _
      | ⟨1, _⟩ => exact (dot_S256x2048_S2048x64_S256x64_1_0_0_1_n_n.lhsIdx_val_of_single rfl _ _).trans hk)
  have er : dot_S256x2048_S2048x64_S256x64_1_0_0_1_n_n.rhsIdx (ix2 r d) ((contrEquiv1 dot_S256x2048_S2048x64_S256x64_1_0_0_1_n_n 2048 rfl rfl).symm k) = ix2 k d :=
    funext fun ax => Fin.ext (by
      match ax with
      | ⟨0, _⟩ => exact (dot_S256x2048_S2048x64_S256x64_1_0_0_1_n_n.rhsIdx_val_of_single rfl _ _).trans hk
      | ⟨1, _⟩ => exact pv_rhs1 _ _)
  rw [el, er]

/-- One masked, scaled score of the block: row `r` of the query block against key `k`, or the fill where the mask
    row's entry is zero. -/
def sc (v3 : Vec Ideal S1x1x256x2048 .i32) (v5 : Vec Ideal S1x1x256x64 .f32) (v8 : Vec Ideal S1x1x2048x64 .f32)
    (r : Fin 256) (k : Fin 2048) : Ideal .f32 :=
  Scalar.select (IntOp.cmpi .eq (v3 (ix4 (0 : Fin 1) (0 : Fin 1) r k)) 0#32) (Ideal.ofBits .f32 0xCE6E6B28#32)
    ((∑ d : Fin 64, v5 (ix4 (0 : Fin 1) (0 : Fin 1) r d) * v8 (ix4 (0 : Fin 1) (0 : Fin 1) k d))
      * Ideal.ofBits .f32 0x3E000000#32)

/-- The row softmax of the block's scores at (r, k). -/
def sm (v3 : Vec Ideal S1x1x256x2048 .i32) (v5 : Vec Ideal S1x1x256x64 .f32) (v8 : Vec Ideal S1x1x2048x64 .f32)
    (r : Fin 256) (k : Fin 2048) : Ideal .f32 :=
  Ideal.div (Ideal.exp (sc v3 v5 v8 r k - (Finset.univ : Finset (Fin 2048)).fold max ⊥ (fun k' => sc v3 v5 v8 r k')))
    (∑ k' : Fin 2048, Ideal.exp (sc v3 v5 v8 r k' - (Finset.univ : Finset (Fin 2048)).fold max ⊥ (fun k'' => sc v3 v5 v8 r k'')))

/-- The printed block of scores — the mask rows compared with zero selecting the fill or the scaled product — at (r, k). -/
theorem scores_apply (v3 : Vec Ideal S1x1x256x2048 .i32) (v5 : Vec Ideal S1x1x256x64 .f32) (v8 : Vec Ideal S1x1x2048x64 .f32)
    (h1 : S1x1x256x2048.ShapeCasts S256x2048) (h2 : S1x1x256x64.ShapeCasts S256x64) (h3 : S1x1x2048x64.ShapeCasts S2048x64)
    (hb : FTy.bits .bf16 < FTy.bits .f32) (r : Fin 256) (k : Fin 2048) :
    (select (cmpi .eq (shapeCast S256x2048 v3 h1 : IVec S256x2048 32) (broadcast S256x2048 (0#32 : BitVec 32)))
        (broadcast S256x2048 (Scalar.ofBits (F := Ideal) .f32 0xCE6E6B28#32))
        (mulf (matmul (F := Ideal) dot_S256x64_S2048x64_S256x2048_1_1_0_0_n_n none
            (truncf .bf16 (shapeCast S256x64 v5 h2 : FVec Ideal S256x64 .f32) hb)
            (truncf .bf16 (shapeCast S2048x64 v8 h3 : FVec Ideal S2048x64 .f32) hb)
            (constant (F := Ideal) S256x2048 .f32 0x00000000#32))
          (broadcast S256x2048 (Scalar.ofBits (F := Ideal) .f32 0x3E000000#32))) : FVec Ideal S256x2048 .f32) (ix2 r k)
      = sc v3 v5 v8 r k := by
  show Scalar.select (IntOp.cmpi .eq (shapeCast S256x2048 v3 h1 (ix2 r k)) 0#32) (Ideal.ofBits .f32 0xCE6E6B28#32)
      (matmul (F := Ideal) dot_S256x64_S2048x64_S256x2048_1_1_0_0_n_n none _ _ _ (ix2 r k) * Ideal.ofBits .f32 0x3E000000#32) = _
  rw [shapeCast_11ab_ab_apply, qk_apply]
  simp only [truncf_apply, shapeCast_11ab_ab_apply]
  rfl

/-- The body's probability block at (r, k) is the row softmax of its scores. -/
theorem pay4_apply (v3 : Vec Ideal S1x1x256x2048 .i32) (v5 : Vec Ideal S1x1x256x64 .f32) (v8 : Vec Ideal S1x1x2048x64 .f32)
    (r : Fin 256) (k : Fin 2048) : k0_pay4 (F := Ideal) v3 v5 v8 (ix2 r k) = sm v3 v5 v8 r k := by
  unfold k0_pay4
  (try dsimp only)
  refine (ColumnLayout.rowSoftmax_apply _ _ _ _ _ _ _ _ r k).trans ?_
  simp only [scores_apply]
  rfl

/-- The stored probability block, with its two leading unit axes, at (u, v, r, k). -/
theorem prob_block (v3 : Vec Ideal S1x1x256x2048 .i32) (v5 : Vec Ideal S1x1x256x64 .f32) (v8 : Vec Ideal S1x1x2048x64 .f32)
    (u v : Fin 1) (r : Fin 256) (k : Fin 2048) :
    k0_pay1 (F := Ideal) (k0_pay4 (F := Ideal) v3 v5 v8) (ix4 u v r k) = sm v3 v5 v8 r k := by
  unfold k0_pay1
  (try dsimp only)
  rw [ColumnLayout.shapeCast_ab_11ab_apply, pay4_apply]

/-- The stored context block at (u, v, r, d): the probabilities of row r against column d of the values. -/
theorem ctx_block (v3 : Vec Ideal S1x1x256x2048 .i32) (v5 : Vec Ideal S1x1x256x64 .f32) (v8 v11 : Vec Ideal S1x1x2048x64 .f32)
    (u v : Fin 1) (r : Fin 256) (d : Fin 64) :
    k0_pay2 (F := Ideal) (k0_pay3 (F := Ideal) v11) (k0_pay4 (F := Ideal) v3 v5 v8) (ix4 u v r d)
      = ∑ k : Fin 2048, sm v3 v5 v8 r k * v11 (ix4 (0 : Fin 1) (0 : Fin 1) k d) := by
  unfold k0_pay2 k0_pay3
  (try dsimp only)
  rw [ColumnLayout.shapeCast_ab_11ab_apply, pv_apply]
  simp only [truncf_apply, shapeCast_11ab_ab_apply, pay4_apply]

/-- When the blocks' entries are the arrays' entries of batch b, head h and query row q, the block's score is the
    specification's. -/
theorem sc_eq_score (Q K : QKV) (M : Mask) (b : Fin 2) (h : Fin 16) (q : Fin 2048)
    (v3 : Vec Ideal S1x1x256x2048 .i32) (v5 : Vec Ideal S1x1x256x64 .f32) (v8 : Vec Ideal S1x1x2048x64 .f32) (r : Fin 256)
    (h3 : ∀ k : Fin 2048, v3 (ix4 (0 : Fin 1) (0 : Fin 1) r k) = M (ix4 b (0 : Fin 1) q k))
    (h5 : ∀ d : Fin 64, v5 (ix4 (0 : Fin 1) (0 : Fin 1) r d) = Q (ix4 b h q d))
    (h8 : ∀ (k : Fin 2048) (d : Fin 64), v8 (ix4 (0 : Fin 1) (0 : Fin 1) k d) = K (ix4 b h k d)) (k : Fin 2048) :
    sc v3 v5 v8 r k = score Q K M b h q k := by
  unfold sc score
  simp only [h3, h5, h8]

/-- … and so is the softmax entry. -/
theorem sm_eq_prob (Q K : QKV) (M : Mask) (b : Fin 2) (h : Fin 16) (q : Fin 2048)
    (v3 : Vec Ideal S1x1x256x2048 .i32) (v5 : Vec Ideal S1x1x256x64 .f32) (v8 : Vec Ideal S1x1x2048x64 .f32) (r : Fin 256)
    (h3 : ∀ k : Fin 2048, v3 (ix4 (0 : Fin 1) (0 : Fin 1) r k) = M (ix4 b (0 : Fin 1) q k))
    (h5 : ∀ d : Fin 64, v5 (ix4 (0 : Fin 1) (0 : Fin 1) r d) = Q (ix4 b h q d))
    (h8 : ∀ (k : Fin 2048) (d : Fin 64), v8 (ix4 (0 : Fin 1) (0 : Fin 1) k d) = K (ix4 b h k d)) (k : Fin 2048) :
    sm v3 v5 v8 r k = prob Q K M b h q k := by
  unfold sm prob weight
  simp only [sc_eq_score Q K M b h q v3 v5 v8 r h3 h5 h8]

end Cert.Sdpa.Body

end
-- ==== Proof.KernelArray.lean ====
/-
  From blocks to arrays: after the run the two result arrays are the specification's arrays of the arguments.

  The grid has 2 · 16 · 8 points; point t stands for batch t / 128, head (t / 8) mod 16 and query tile t mod 8. Its
  query, context and probability blocks are rows 256 · (t mod 8) … + 255 of that batch and head; its key and value
  blocks are the whole head; its mask block is the whole batch, of which the body reads the same 256 rows. So the
  entry (r, ·) a point writes back is the specification's entry of query row 256 · (t mod 8) + r, and every index of a
  result array lies in the block of exactly the point its batch, head and row name: the blocks cover the arrays.
-/
import proofs.«107033_j48679159333219_2_alg».proof.Proof.Gen.KernelIdeal.Value
import proofs.«107033_j48679159333219_2_alg».proof.Proof.KernelPieces
import proofs.«107033_j48679159333219_2_alg».proof.Proof.KernelBody
import Idealize.ShloMosaic.Lib.Pipeline.Value

set_option maxRecDepth 16384
set_option Elab.async false

noncomputable section

namespace Cert.Sdpa.Kern

open Cert.KernelIdeal Cert.KernelIdeal.Gen Idealize.ShloMosaic Idealize.ShloMosaic.TcCoe Idealize.SL.Sem
open Idealize.ShloMosaic.ValueIdx Cert.Sdpa
open Idealize.ShloMosaic.Pipeline (Dat)

variable (m : (ℓ : Loc nD τ sig) → Buf (Elt Ideal) ℓ) (ρ : Dev nD → PrngReg)

/-! ## The index maps over the grid -/

theorem idx0 : ∀ t : Fin cfg0.N, win0_0.index t (0 : Fin 4) = t.val / 128 ∧ win0_0.index t (1 : Fin 4) = t.val / 8 % 16
    ∧ win0_0.index t (2 : Fin 4) = t.val % 8 ∧ win0_0.index t (3 : Fin 4) = 0 :=
  (by decide +kernel : ∀ t : Fin grid0.N, _)
theorem idx1 : ∀ t : Fin cfg0.N, win0_1.index t (0 : Fin 4) = t.val / 128 ∧ win0_1.index t (1 : Fin 4) = t.val / 8 % 16
    ∧ win0_1.index t (2 : Fin 4) = 0 ∧ win0_1.index t (3 : Fin 4) = 0 :=
  (by decide +kernel : ∀ t : Fin grid0.N, _)
theorem idx2 : ∀ t : Fin cfg0.N, win0_2.index t (0 : Fin 4) = t.val / 128 ∧ win0_2.index t (1 : Fin 4) = t.val / 8 % 16
    ∧ win0_2.index t (2 : Fin 4) = 0 ∧ win0_2.index t (3 : Fin 4) = 0 :=
  (by decide +kernel : ∀ t : Fin grid0.N, _)
theorem idx3 : ∀ t : Fin cfg0.N, win0_3.index t (0 : Fin 4) = t.val / 128 ∧ win0_3.index t (1 : Fin 4) = 0
    ∧ win0_3.index t (2 : Fin 4) = 0 ∧ win0_3.index t (3 : Fin 4) = 0 :=
  (by decide +kernel : ∀ t : Fin grid0.N, _)
theorem idx4 : ∀ t : Fin cfg0.N, win0_4.index t (0 : Fin 4) = t.val / 128 ∧ win0_4.index t (1 : Fin 4) = t.val / 8 % 16
    ∧ win0_4.index t (2 : Fin 4) = t.val % 8 ∧ win0_4.index t (3 : Fin 4) = 0 :=
  (by decide +kernel : ∀ t : Fin grid0.N, _)
theorem idx5 : ∀ t : Fin cfg0.N, win0_5.index t (0 : Fin 4) = t.val / 128 ∧ win0_5.index t (1 : Fin 4) = t.val / 8 % 16
    ∧ win0_5.index t (2 : Fin 4) = t.val % 8 ∧ win0_5.index t (3 : Fin 4) = 0 :=
  (by decide +kernel : ∀ t : Fin grid0.N, _)

/-- The mask rows' offsets: row 256 · (query tile). -/
theorem off1 : ∀ t : Fin cfg0.N, k0_off1 (grid0.coords t) (0 : Fin 4) = 0 ∧ k0_off1 (grid0.coords t) (1 : Fin 4) = 0
    ∧ k0_off1 (grid0.coords t) (2 : Fin 4) = t.val % 8 * 256 ∧ k0_off1 (grid0.coords t) (3 : Fin 4) = 0 :=
  (by decide +kernel : ∀ t : Fin grid0.N, _)

/-! ## The argument arrays, as the specification types them -/

abbrev Qa (c : Dev nD) : QKV := V m c main_arg0
abbrev Ka (c : Dev nD) : QKV := V m c main_arg1
abbrev Va (c : Dev nD) : QKV := V m c main_arg2
abbrev Ma (c : Dev nD) : Mask := V m c main_arg3

/-! ## A block's entry is the array's entry -/

/-- The query block at point t: rows 256 · (t mod 8) + · of batch t / 128, head (t / 8) mod 16. -/
theorem iblk0_apply (c : Dev nD) (t : Fin cfg0.N) (x : S1x1x256x64.Idx) (j : S2x16x2048x64.Idx)
    (h0 : (j 0).val = t.val / 128) (h1 : (j 1).val = t.val / 8 % 16)
    (h2 : (j 2).val = t.val % 8 * 256 + (x 2).val) (h3 : (j 3).val = (x 3).val) :
    (iblk m c 0 t : Vec Ideal S1x1x256x64 .f32) x = Qa m c j := by
  obtain ⟨i0, i1, i2, i3⟩ := idx0 t
  have x0 : (x 0).val < 1 := (x 0).isLt
  have x1 : (x 1).val < 1 := (x 1).isLt
  unfold iblk
  rw [View.read_apply]
  show V m c main_arg0 _ = V m c main_arg0 _
  congr 1
  funext a
  apply Fin.ext
  match a with
  | ⟨0, _⟩ => show win0_0.index t (0 : Fin 4) * 1 + 1 * (x 0).val = (j 0).val; rw [i0, h0]; omega
  | ⟨1, _⟩ => show win0_0.index t (1 : Fin 4) * 1 + 1 * (x 1).val = (j 1).val; rw [i1, h1]; omega
  | ⟨2, _⟩ => show win0_0.index t (2 : Fin 4) * 256 + 1 * (x 2).val = (j 2).val; rw [i2, h2]; omega
  | ⟨3, _⟩ => show win0_0.index t (3 : Fin 4) * 64 + 1 * (x 3).val = (j 3).val; rw [i3, h3]; omega

/-- The key block at point t: the whole of batch t / 128, head (t / 8) mod 16. -/
theorem iblk1_apply (c : Dev nD) (t : Fin cfg0.N) (x : S1x1x2048x64.Idx) (j : S2x16x2048x64.Idx)
    (h0 : (j 0).val = t.val / 128) (h1 : (j 1).val = t.val / 8 % 16)
    (h2 : (j 2).val = (x 2).val) (h3 : (j 3).val = (x 3).val) :
    (iblk m c 1 t : Vec Ideal S1x1x2048x64 .f32) x = Ka m c j := by
  obtain ⟨i0, i1, i2, i3⟩ := idx1 t
  have x0 : (x 0).val < 1 := (x 0).isLt
  have x1 : (x 1).val < 1 := (x 1).isLt
  unfold iblk
  rw [View.read_apply]
  show V m c main_arg1 _ = V m c main_arg1 _
  congr 1
  funext a
  apply Fin.ext
  match a with
  | ⟨0, _⟩ => show win0_1.index t (0 : Fin 4) * 1 + 1 * (x 0).val = (j 0).val; rw [i0, h0]; omega
  | ⟨1, _⟩ => show win0_1.index t (1 : Fin 4) * 1 + 1 * (x 1).val = (j 1).val; rw [i1, h1]; omega
  | ⟨2, _⟩ => show win0_1.index t (2 : Fin 4) * 2048 + 1 * (x 2).val = (j 2).val; rw [i2, h2]; omega
  | ⟨3, _⟩ => show win0_1.index t (3 : Fin 4) * 64 + 1 * (x 3).val = (j 3).val; rw [i3, h3]; omega

/-- The value block at point t: the whole of batch t / 128, head (t / 8) mod 16. -/
theorem iblk2_apply (c : Dev nD) (t : Fin cfg0.N) (x : S1x1x2048x64.Idx) (j : S2x16x2048x64.Idx)
    (h0 : (j 0).val = t.val / 128) (h1 : (j 1).val = t.val / 8 % 16)
    (h2 : (j 2).val = (x 2).val) (h3 : (j 3).val = (x 3).val) :
    (iblk m c 2 t : Vec Ideal S1x1x2048x64 .f32) x = Va m c j := by
  obtain ⟨i0, i1, i2, i3⟩ := idx2 t
  have x0 : (x 0).val < 1 := (x 0).isLt
  have x1 : (x 1).val < 1 := (x 1).isLt
  unfold iblk
  rw [View.read_apply]
  show V m c main_arg2 _ = V m c main_arg2 _
  congr 1
  funext a
  apply Fin.ext
  match a with
  | ⟨0, _⟩ => show win0_2.index t (0 : Fin 4) * 1 + 1 * (x 0).val = (j 0).val; rw [i0, h0]; omega
  | ⟨1, _⟩ => show win0_2.index t (1 : Fin 4) * 1 + 1 * (x 1).val = (j 1).val; rw [i1, h1]; omega
  | ⟨2, _⟩ => show win0_2.index t (2 : Fin 4) * 2048 + 1 * (x 2).val = (j 2).val; rw [i2, h2]; omega
  | ⟨3, _⟩ => show win0_2.index t (3 : Fin 4) * 64 + 1 * (x 3).val = (j 3).val; rw [i3, h3]; omega

/-- The mask block at point t: the whole of batch t / 128. -/
theorem iblk3_apply (c : Dev nD) (t : Fin cfg0.N) (x : S1x1x2048x2048.Idx) (j : S2x1x2048x2048.Idx)
    (h0 : (j 0).val = t.val / 128) (h2 : (j 2).val = (x 2).val) (h3 : (j 3).val = (x 3).val) :
    (iblk m c 3 t : Vec Ideal S1x1x2048x2048 .i32) x = Ma m c j := by
  obtain ⟨i0, i1, i2, i3⟩ := idx3 t
  have x0 : (x 0).val < 1 := (x 0).isLt
  have x1 : (x 1).val < 1 := (x 1).isLt
  have j1 : (j 1).val < 1 := (j 1).isLt
  unfold iblk
  rw [View.read_apply]
  show V m c main_arg3 _ = V m c main_arg3 _
  congr 1
  funext a
  apply Fin.ext
  match a with
  | ⟨0, _⟩ => show win0_3.index t (0 : Fin 4) * 1 + 1 * (x 0).val = (j 0).val; rw [i0, h0]; omega
  | ⟨1, _⟩ => show win0_3.index t (1 : Fin 4) * 1 + 1 * (x 1).val = (j 1).val; rw [i1]; omega
  | ⟨2, _⟩ => show win0_3.index t (2 : Fin 4) * 2048 + 1 * (x 2).val = (j 2).val; rw [i2, h2]; omega
  | ⟨3, _⟩ => show win0_3.index t (3 : Fin 4) * 2048 + 1 * (x 3).val = (j 3).val; rw [i3, h3]; omega

/-- The mask rows the body reads at point t: rows 256 · (t mod 8) + · of batch t / 128. -/
theorem maskRows_apply (c : Dev nD) (t : Fin cfg0.N) (r : Fin 256) (k : Fin 2048) (j : S2x1x2048x2048.Idx)
    (h0 : (j 0).val = t.val / 128) (h2 : (j 2).val = t.val % 8 * 256 + r.val) (h3 : (j 3).val = k.val) :
    Pieces.maskRows (grid0.coords t) (iblk m c 3 t) (ix4 (0 : Fin 1) (0 : Fin 1) r k) = Ma m c j := by
  obtain ⟨o0, o1, o2, o3⟩ := off1 t
  unfold Pieces.maskRows
  refine iblk3_apply m c t _ j h0 ?_ ?_
  · show (j 2).val = k0_off1 (grid0.coords t) (2 : Fin 4) + 1 * r.val
    rw [o2, h2]; omega
  · show (j 3).val = k0_off1 (grid0.coords t) (3 : Fin 4) + 1 * k.val
    rw [o3, h3]; omega

/-! ## What a point writes back -/

/-- Point t writes back, to the probability array, its block of the specification's probabilities. -/
theorem flushed5_eq (c : Dev nD) (t : Fin cfg0.N) :
    (dats m 0 c).flushed 5 t
      = ((cfg0.win 5).blk t).view.read (Elt Ideal) (probs (Qa m c) (Ka m c) (Ma m c)) := by
  rw [Cert.KernelIdeal.Value.flushed5_A, Pieces.prob_piece]
  obtain ⟨i0, i1, i2, i3⟩ := idx5 t
  funext y
  rw [View.read_apply]
  have y0 : (y 0).val < 1 := (y 0).isLt
  have y1 : (y 1).val < 1 := (y 1).isLt
  have y2 : (y 2).val < 256 := (y 2).isLt
  have y3 : (y 3).val < 2048 := (y 3).isLt
  have e0 : ((((cfg0.win 5).blk t).view.emb y) 0).val = t.val / 128 := by
    show win0_5.index t (0 : Fin 4) * 1 + 1 * (y 0).val = _; rw [i0]; omega
  have e1 : ((((cfg0.win 5).blk t).view.emb y) 1).val = t.val / 8 % 16 := by
    show win0_5.index t (1 : Fin 4) * 1 + 1 * (y 1).val = _; rw [i1]; omega
  have e2 : ((((cfg0.win 5).blk t).view.emb y) 2).val = t.val % 8 * 256 + (y 2).val := by
    show win0_5.index t (2 : Fin 4) * 256 + 1 * (y 2).val = _; rw [i2]; omega
  have e3 : ((((cfg0.win 5).blk t).view.emb y) 3).val = (y 3).val := by
    show win0_5.index t (3 : Fin 4) * 2048 + 1 * (y 3).val = _; rw [i3]; omega
  have hx : (cfg0.win 5).xinj (grid0.coords t) y
      = ix4 (0 : Fin 1) (0 : Fin 1) (⟨(y 2).val, y2⟩ : Fin 256) (⟨(y 3).val, y3⟩ : Fin 2048) :=
    funext fun a => Fin.ext (by
      match a with
      | ⟨0, _⟩ => show (y 0).val = 0; omega
      | ⟨1, _⟩ => show (y 1).val = 0; omega
      | ⟨2, _⟩ => rfl
      | ⟨3, _⟩ => rfl)
  obtain ⟨j, hj⟩ : ∃ j : S2x16x2048x2048.Idx, ((cfg0.win 5).blk t).view.emb y = j := ⟨_, rfl⟩
  rw [hj] at e0 e1 e2 e3
  show k0_pay1 (F := Ideal) (k0_pay4 (F := Ideal) (Pieces.maskRows (grid0.coords t) (iblk m c 3 t)) (iblk m c 0 t) (iblk m c 1 t))
      ((cfg0.win 5).xinj (grid0.coords t) y) = probs (Qa m c) (Ka m c) (Ma m c) (((cfg0.win 5).blk t).view.emb y)
  rw [hx, hj]
  refine (Body.prob_block (Pieces.maskRows (grid0.coords t) (iblk m c 3 t)) (iblk m c 0 t) (iblk m c 1 t) (0 : Fin 1) (0 : Fin 1)
    (⟨(y 2).val, y2⟩ : Fin 256) (⟨(y 3).val, y3⟩ : Fin 2048)).trans ?_
  obtain ⟨jb, jh, jq, jk, rfl⟩ : ∃ (jb : Fin 2) (jh : Fin 16) (jq : Fin 2048) (jk : Fin 2048), j = ix4 jb jh jq jk :=
    ⟨j 0, j 1, j 2, j 3, eq_ix4 j⟩
  rw [probs_apply]
  refine (Body.sm_eq_prob (Qa m c) (Ka m c) (Ma m c) jb jh jq
    (Pieces.maskRows (grid0.coords t) (iblk m c 3 t)) (iblk m c 0 t) (iblk m c 1 t) (⟨(y 2).val, y2⟩ : Fin 256)
    (fun k => maskRows_apply m c t _ k _ e0 e2 rfl)
    (fun d => iblk0_apply m c t _ _ e0 e1 e2 rfl)
    (fun k d => iblk1_apply m c t _ _ e0 e1 rfl rfl) (⟨(y 3).val, y3⟩ : Fin 2048)).trans ?_
  exact congrArg (prob (Qa m c) (Ka m c) (Ma m c) jb jh jq) (Fin.ext e3.symm)

/-- Point t writes back, to the context array, its block of the specification's context. -/
theorem flushed4_eq (c : Dev nD) (t : Fin cfg0.N) :
    (dats m 0 c).flushed 4 t
      = ((cfg0.win 4).blk t).view.read (Elt Ideal) (ctxs (Qa m c) (Ka m c) (Va m c) (Ma m c)) := by
  rw [Cert.KernelIdeal.Value.flushed4_A, Pieces.ctx_piece]
  obtain ⟨i0, i1, i2, i3⟩ := idx4 t
  funext y
  rw [View.read_apply]
  have y0 : (y 0).val < 1 := (y 0).isLt
  have y1 : (y 1).val < 1 := (y 1).isLt
  have y2 : (y 2).val < 256 := (y 2).isLt
  have y3 : (y 3).val < 64 := (y 3).isLt
  have e0 : ((((cfg0.win 4).blk t).view.emb y) 0).val = t.val / 128 := by
    show win0_4.index t (0 : Fin 4) * 1 + 1 * (y 0).val = _; rw [i0]; omega
  have e1 : ((((cfg0.win 4).blk t).view.emb y) 1).val = t.val / 8 % 16 := by
    show win0_4.index t (1 : Fin 4) * 1 + 1 * (y 1).val = _; rw [i1]; omega
  have e2 : ((((cfg0.win 4).blk t).view.emb y) 2).val = t.val % 8 * 256 + (y 2).val := by
    show win0_4.index t (2 : Fin 4) * 256 + 1 * (y 2).val = _; rw [i2]; omega
  have e3 : ((((cfg0.win 4).blk t).view.emb y) 3).val = (y 3).val := by
    show win0_4.index t (3 : Fin 4) * 64 + 1 * (y 3).val = _; rw [i3]; omega
  have hx : (cfg0.win 4).xinj (grid0.coords t) y
      = ix4 (0 : Fin 1) (0 : Fin 1) (⟨(y 2).val, y2⟩ : Fin 256) (⟨(y 3).val, y3⟩ : Fin 64) :=
    funext fun a => Fin.ext (by
      match a with
      | ⟨0, _⟩ => show (y 0).val = 0; omega
      | ⟨1, _⟩ => show (y 1).val = 0; omega
      | ⟨2, _⟩ => rfl
      | ⟨3, _⟩ => rfl)
  obtain ⟨j, hj⟩ : ∃ j : S2x16x2048x64.Idx, ((cfg0.win 4).blk t).view.emb y = j := ⟨_, rfl⟩
  rw [hj] at e0 e1 e2 e3
  show k0_pay2 (F := Ideal) (k0_pay3 (F := Ideal) (iblk m c 2 t))
      (k0_pay4 (F := Ideal) (Pieces.maskRows (grid0.coords t) (iblk m c 3 t)) (iblk m c 0 t) (iblk m c 1 t))
      ((cfg0.win 4).xinj (grid0.coords t) y) = ctxs (Qa m c) (Ka m c) (Va m c) (Ma m c) (((cfg0.win 4).blk t).view.emb y)
  rw [hx, hj]
  refine (Body.ctx_block (Pieces.maskRows (grid0.coords t) (iblk m c 3 t)) (iblk m c 0 t) (iblk m c 1 t) (iblk m c 2 t)
    (0 : Fin 1) (0 : Fin 1) (⟨(y 2).val, y2⟩ : Fin 256) (⟨(y 3).val, y3⟩ : Fin 64)).trans ?_
  obtain ⟨jb, jh, jq, jd, rfl⟩ : ∃ (jb : Fin 2) (jh : Fin 16) (jq : Fin 2048) (jd : Fin 64), j = ix4 jb jh jq jd :=
    ⟨j 0, j 1, j 2, j 3, eq_ix4 j⟩
  rw [ctxs_apply]
  unfold ctx
  refine Finset.sum_congr rfl fun k _ => ?_
  rw [Body.sm_eq_prob (Qa m c) (Ka m c) (Ma m c) jb jh jq
    (Pieces.maskRows (grid0.coords t) (iblk m c 3 t)) (iblk m c 0 t) (iblk m c 1 t) (⟨(y 2).val, y2⟩ : Fin 256)
    (fun k => maskRows_apply m c t _ k _ e0 e2 rfl)
    (fun d => iblk0_apply m c t _ _ e0 e1 e2 rfl)
    (fun k d => iblk1_apply m c t _ _ e0 e1 rfl rfl) k,
    iblk2_apply m c t (ix4 (0 : Fin 1) (0 : Fin 1) k (⟨(y 3).val, y3⟩ : Fin 64)) (ix4 jb jh k jd) e0 e1 rfl e3]

/-! ## The blocks cover the arrays -/

theorem mem_blk5 (t : Fin cfg0.N) (i : S2x16x2048x2048.Idx) :
    i ∈ ((cfg0.win 5).blk t).view.set ↔ ∀ a : Fin 4, win0_5.index t a * S1x1x256x2048.size a ≤ (i a).val
      ∧ (i a).val < win0_5.index t a * S1x1x256x2048.size a + S1x1x256x2048.size a := by
  show i ∈ ((View.whole main_v0_1).slice (win0_5.rect t)).set ↔ _
  rw [View.set_slice_whole, Rect.mem_set_unit]
  exact Iff.rfl

theorem mem_blk4 (t : Fin cfg0.N) (i : S2x16x2048x64.Idx) :
    i ∈ ((cfg0.win 4).blk t).view.set ↔ ∀ a : Fin 4, win0_4.index t a * S1x1x256x64.size a ≤ (i a).val
      ∧ (i a).val < win0_4.index t a * S1x1x256x64.size a + S1x1x256x64.size a := by
  show i ∈ ((View.whole main_v0_0).slice (win0_4.rect t)).set ↔ _
  rw [View.set_slice_whole, Rect.mem_set_unit]
  exact Iff.rfl

/-- Every index of the probability array is in the block of the point its batch, head and query tile name. -/
theorem cover5 (i : S2x16x2048x2048.Idx) :
    ∃ t : Fin cfg0.N, (cfg0.win 5).flush t = true ∧ i ∈ ((cfg0.win 5).blk t).view.set := by
  have hN : cfg0.N = 256 := N_0
  have b0 : (i 0).val < 2 := (i 0).isLt
  have b1 : (i 1).val < 16 := (i 1).isLt
  have b2 : (i 2).val < 2048 := (i 2).isLt
  have b3 : (i 3).val < 2048 := (i 3).isLt
  obtain ⟨t, tv⟩ : ∃ t : Fin cfg0.N, t.val = (i 0).val * 128 + (i 1).val * 8 + (i 2).val / 256 :=
    ⟨⟨(i 0).val * 128 + (i 1).val * 8 + (i 2).val / 256, by rw [hN]; omega⟩, rfl⟩
  obtain ⟨i0, i1, i2, i3⟩ := idx5 t
  refine ⟨t, flush0_5 t, ?_⟩
  rw [mem_blk5]
  intro a
  match a with
  | ⟨0, _⟩ =>
    show win0_5.index t (0 : Fin 4) * 1 ≤ (i 0).val ∧ (i 0).val < win0_5.index t (0 : Fin 4) * 1 + 1
    rw [i0, tv]; omega
  | ⟨1, _⟩ =>
    show win0_5.index t (1 : Fin 4) * 1 ≤ (i 1).val ∧ (i 1).val < win0_5.index t (1 : Fin 4) * 1 + 1
    rw [i1, tv]; omega
  | ⟨2, _⟩ =>
    show win0_5.index t (2 : Fin 4) * 256 ≤ (i 2).val ∧ (i 2).val < win0_5.index t (2 : Fin 4) * 256 + 256
    rw [i2, tv]; omega
  | ⟨3, _⟩ =>
    show win0_5.index t (3 : Fin 4) * 2048 ≤ (i 3).val ∧ (i 3).val < win0_5.index t (3 : Fin 4) * 2048 + 2048
    rw [i3]; omega

/-- Every index of the context array is in the block of the point its batch, head and query tile name. -/
theorem cover4 (i : S2x16x2048x64.Idx) :
    ∃ t : Fin cfg0.N, (cfg0.win 4).flush t = true ∧ i ∈ ((cfg0.win 4).blk t).view.set := by
  have hN : cfg0.N = 256 := N_0
  have b0 : (i 0).val < 2 := (i 0).isLt
  have b1 : (i 1).val < 16 := (i 1).isLt
  have b2 : (i 2).val < 2048 := (i 2).isLt
  have b3 : (i 3).val < 64 := (i 3).isLt
  obtain ⟨t, tv⟩ : ∃ t : Fin cfg0.N, t.val = (i 0).val * 128 + (i 1).val * 8 + (i 2).val / 256 :=
    ⟨⟨(i 0).val * 128 + (i 1).val * 8 + (i 2).val / 256, by rw [hN]; omega⟩, rfl⟩
  obtain ⟨i0, i1, i2, i3⟩ := idx4 t
  refine ⟨t, flush0_4 t, ?_⟩
  rw [mem_blk4]
  intro a
  match a with
  | ⟨0, _⟩ =>
    show win0_4.index t (0 : Fin 4) * 1 ≤ (i 0).val ∧ (i 0).val < win0_4.index t (0 : Fin 4) * 1 + 1
    rw [i0, tv]; omega
  | ⟨1, _⟩ =>
    show win0_4.index t (1 : Fin 4) * 1 ≤ (i 1).val ∧ (i 1).val < win0_4.index t (1 : Fin 4) * 1 + 1
    rw [i1, tv]; omega
  | ⟨2, _⟩ =>
    show win0_4.index t (2 : Fin 4) * 256 ≤ (i 2).val ∧ (i 2).val < win0_4.index t (2 : Fin 4) * 256 + 256
    rw [i2, tv]; omega
  | ⟨3, _⟩ =>
    show win0_4.index t (3 : Fin 4) * 64 ≤ (i 3).val ∧ (i 3).val < win0_4.index t (3 : Fin 4) * 64 + 64
    rw [i3]; omega

/-! ## The arrays after the run -/

theorem final5 (c : Dev nD) : (dats m 0 c).arrAt 5 cfg0.N = probs (Qa m c) (Ka m c) (Ma m c) :=
  (dats m 0 c).arrAt_eq_of_cover 5 (probs (Qa m c) (Ka m c) (Ma m c)) (fun t _ => flushed5_eq m c t) cover5

theorem final4 (c : Dev nD) : (dats m 0 c).arrAt 4 cfg0.N = ctxs (Qa m c) (Ka m c) (Va m c) (Ma m c) :=
  (dats m 0 c).arrAt_eq_of_cover 4 (ctxs (Qa m c) (Ka m c) (Va m c) (Ma m c)) (fun t _ => flushed4_eq m c t) cover4

/-- The kernel's run: every weakly fair execution ends with the context and probability arrays at the specification's
    arrays of the arguments as launched, and the arguments unchanged. -/
theorem run : θ_run defs (onTc (τ := τ) (main (F := Ideal))) ⟨m, fun _ => 0, ρ⟩ fun r => ∀ c : Dev nD,
      r.2.mem ((c : Thread nD τ).loc main_v0_0) = ctxs (Qa m c) (Ka m c) (Va m c) (Ma m c)
      ∧ r.2.mem ((c : Thread nD τ).loc main_v0_1) = probs (Qa m c) (Ka m c) (Ma m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final4 m c), (h c).2.1.trans (final5 m c), (h c).2.2⟩)
    (Cert.KernelIdeal.Value.run_blocks m ρ)

end Cert.Sdpa.Kern

end
-- ==== Proof.lean ====
/-
  Scaled dot-product attention with a mask: the kernel against its reference, over the extended reals.

  Both programs compute, for every batch, head and query row, the masked and scaled scores against all keys, their
  row softmax (the probabilities, the second result) and the probabilities' weighted sum of the values (the context,
  the first result). They differ in where the work is cut and in one spelling: the kernel walks a grid of batch, head
  and tiles of 256 query rows, holding a head's keys and values and a batch's mask whole, and multiplies the
  contraction by the binary32 number 1/8, while the reference works on whole arrays and divides the contraction by 8.
  On the extended reals dividing by 8 is multiplying by 1/8, at the infinities too; the reference's extra maximum with
  -∞ is the identity; the fill -1e9 is the same binary32 number on both sides. So both results are one function of the
  arguments — the specification — and no finiteness of the inputs is used.

  The kernel's side: what a run of the body leaves in the two output blocks is the body's terms of the loaded blocks;
  read at an entry these are the specification's entries of the row the block row stands for; the 256 blocks of each
  result tile its array. The reference's side: its run's term, read stage by stage at an index, is the specification.
  The frames are the programs' runs with the results dropped; the ideal pass rewrote nothing.
-/
import proofs.«107033_j48679159333219_2_alg».proof.Defs
import proofs.«107033_j48679159333219_2_alg».proof.Proof.Gen.Kernel
import proofs.«107033_j48679159333219_2_alg».proof.Proof.Gen.Kernel.Frame
import proofs.«107033_j48679159333219_2_alg».proof.Proof.Gen.KernelIdeal
import proofs.«107033_j48679159333219_2_alg».proof.Proof.Gen.KernelIdeal.Frame
import proofs.«107033_j48679159333219_2_alg».proof.Proof.Gen.KernelIdeal.Value
import proofs.«107033_j48679159333219_2_alg».proof.Proof.Gen.ReferenceIdeal
import proofs.«107033_j48679159333219_2_alg».proof.Proof.Gen.ReferenceIdeal.Run
import proofs.«107033_j48679159333219_2_alg».proof.Proof.Gen.ReferenceIdeal.Read
import proofs.«107033_j48679159333219_2_alg».proof.Proof.Gen.Pre_finite_inputs
import proofs.«107033_j48679159333219_2_alg».proof.Proof.RefIsSpec
import proofs.«107033_j48679159333219_2_alg».proof.Proof.KernelArray
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- The idealized kernel runs and leaves its arguments as launched. -/
theorem frame_kernelIdeal : Cert.frame_KernelIdeal := fun m ρ _ => Cert.KernelIdeal.Gen.frame m ρ

/-- The idealized reference runs and leaves its arguments as launched: its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The ideal pass rewrote no operation. -/
theorem preserves : Cert.preserves_Kernel_KernelIdeal := trivial

/-- From memories agreeing on the arguments both idealized programs end with the specification's context and
    probability arrays of those arguments. -/
theorem algebraic : Cert.algebraic_KernelIdeal_ReferenceIdeal := by
  intro m ρ m' ρ' _ hagree
  refine ⟨fun c => Cert.Sdpa.ctxs (Cert.Sdpa.Kern.Qa m c) (Cert.Sdpa.Kern.Ka m c) (Cert.Sdpa.Kern.Va m c) (Cert.Sdpa.Kern.Ma m c),
    fun c => Cert.Sdpa.probs (Cert.Sdpa.Kern.Qa m c) (Cert.Sdpa.Kern.Ka m c) (Cert.Sdpa.Kern.Ma m c),
    Cert.Sdpa.Kern.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [(hagree c).1, (hagree c).2.1, (hagree c).2.2.1, (hagree c).2.2.2]
    exact (Cert.ReferenceIdeal.Read.val_main_v17_eq _ _ _ _).trans (Cert.Sdpa.Ref.ctxs_eq _ _ _ _)
  · rw [(hagree c).1, (hagree c).2.1, (hagree c).2.2.2]
    exact (Cert.ReferenceIdeal.Read.val_main_v16_eq _ _ _).trans (Cert.Sdpa.Ref.probs_eq _ _ _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
